-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S1x256 : Shape := ⟨2, ![1, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S1x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S1x256 : Shape := ⟨2, ![1, 256]⟩
abbrev S400x10000 : Shape := ⟨2, ![400, 10000]⟩
abbrev S400x256 : Shape := ⟨2, ![400, 256]⟩

abbrev nBuf : Space → Nat
  | .hbm => 5
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S1x256, .f32⟩
  | .hbm, ⟨4, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S400x10000, .f32⟩
  | .local _ .vmem, ⟨4, _⟩ => ⟨S400x10000, .f32⟩
  | .local _ .vmem, ⟨5, _⟩ => ⟨S400x256, .f32⟩
  | .local _ .vmem, ⟨6, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S1x256, .f32⟩
  | .hbm, ⟨4, _⟩ => ⟨S10000x256, .f32⟩
  | .hbm, ⟨5, _⟩ => ⟨S10000x256, .f32⟩
  | .hbm, ⟨6, _⟩ => ⟨S10000x256, .f32⟩
  | .hbm, ⟨7, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S1x256_S10000x256_0_1 : S1x256.BroadcastsInDim S10000x256 (![0, 1] : Fin 2 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibTripleProduct.lean ====
/-
  Associativity of a triple matrix product over real entries, on the extended reals.

  (a · ξ) · ω and a · (ξ · ω) are the same double sum of products a_k · ξ_kj · ω_j, regrouped. On the extended reals a
  product does not distribute over a sum that holds opposite infinities, so the regrouping is stated where every
  entry is a real number: there every partial sum is real, and both sides are the real double sum read in the
  extended reals. Stated for one row a, one column ω and the matrix ξ between them, over any finite index types.
-/
import Mathlib.Data.EReal.Inv
import Mathlib.Algebra.BigOperators.Ring.Finset
import proofs.«178998_g17901423690507_cont_7to1_773_20_alg».proof.Proof.LibERealSum

namespace Cert.Lib

open scoped BigOperators

/-- Σ_j (Σ_k a_k · ξ_kj) · ω_j = Σ_k a_k · (Σ_j ξ_kj · ω_j) for real a, ξ, ω read in the extended reals. -/
theorem sum_sum_mul_assoc {K J : Type*} [Fintype K] [Fintype J] (a : K → ℝ) (ξ : K → J → ℝ) (ω : J → ℝ) :
    ∑ j, (∑ k, ((a k : ℝ) : EReal) * ((ξ k j : ℝ) : EReal)) * ((ω j : ℝ) : EReal)
      = ∑ k, ((a k : ℝ) : EReal) * ∑ j, ((ξ k j : ℝ) : EReal) * ((ω j : ℝ) : EReal) := by
  simp only [← EReal.coe_mul, Cert.Lib.sum_coe]
  refine congrArg _ ?_
  simp only [Finset.sum_mul, Finset.mul_sum]
  rw [Finset.sum_comm]
  exact Finset.sum_congr rfl fun k _ => Finset.sum_congr rfl fun j _ => mul_assoc _ _ _

end Cert.Lib
-- ==== Proof.Layer.lean ====
/-
  One graph-convolution layer on the extended reals, written in its two orders of multiplication.

  For a feature matrix x [10000, 256], an adjacency matrix a [10000, 10000], a weight matrix w [256, 256] and a
  bias row b [1, 256], entry (p, q) of the layer is

      Σ_k a(p,k) · (Σ_j x(k,j) · w(j,q)) + b(0,q)          -- project the features first, then aggregate,

  and the same layer with the neighbours aggregated first is

      Σ_j (Σ_k a(p,k) · x(k,j)) · w(j,q) + b(0,q).

  The two double sums run over the same products a(p,k) · x(k,j) · w(j,q), regrouped. On the extended reals a
  product does not distribute over a sum that holds opposite infinities, so the regrouping is proved where every
  entry of a, x and w is a real number: there both sides are the real double sum, read in the extended reals. The
  bias is only added, at the end, on both sides, and may be any extended real.
-/
import Idealize.ShloMosaic.PureOps.Ideal
import Idealize.ShloMosaic.Lib.ValueIdx
import proofs.«178998_g17901423690507_cont_7to1_773_20_alg».proof.Proof.LibTripleProduct

noncomputable section

namespace Cert.GraphConv

open Idealize.ShloMosaic Idealize.ShloMosaic.ValueIdx
open scoped BigOperators

variable (x : (⟨2, ![10000, 256]⟩ : Shape).Idx → EReal) (a : (⟨2, ![10000, 10000]⟩ : Shape).Idx → EReal)
  (w : (⟨2, ![256, 256]⟩ : Shape).Idx → EReal) (b : (⟨2, ![1, 256]⟩ : Shape).Idx → EReal)

/-- Entry (p, q) of the layer with the neighbours aggregated first: (a·x)·w + b. -/
def aggFirstAt (p : Fin 10000) (q : Fin 256) : EReal :=
  (∑ j : Fin 256, (∑ k : Fin 10000, a (ix2 p k) * x (ix2 k j)) * w (ix2 j q)) + b (ix2 (0 : Fin 1) q)

/-- Entry (p, q) of the layer with the features projected first: a·(x·w) + b. -/
def projFirstAt (p : Fin 10000) (q : Fin 256) : EReal :=
  (∑ k : Fin 10000, a (ix2 p k) * ∑ j : Fin 256, x (ix2 k j) * w (ix2 j q)) + b (ix2 (0 : Fin 1) q)

/-- The whole [10000, 256] result, neighbours aggregated first. -/
def aggFirst : (⟨2, ![10000, 256]⟩ : Shape).Idx → EReal := fun i => aggFirstAt x a w b (i 0) (i 1)

/-- The whole [10000, 256] result, features projected first. -/
def projFirst : (⟨2, ![10000, 256]⟩ : Shape).Idx → EReal := fun i => projFirstAt x a w b (i 0) (i 1)

/-- Where the features, the adjacency and the weights are real numbers the two orders agree at every entry. -/
theorem aggFirstAt_eq_projFirstAt (hx : ∀ i, ∃ r : ℝ, x i = (r : EReal)) (ha : ∀ i, ∃ r : ℝ, a i = (r : EReal))
    (hw : ∀ i, ∃ r : ℝ, w i = (r : EReal)) (p : Fin 10000) (q : Fin 256) :
    aggFirstAt x a w b p q = projFirstAt x a w b p q := by
  choose ξ hξ using hx
  choose α hα using ha
  choose ω hω using hw
  unfold aggFirstAt projFirstAt
  simp only [hξ, hα, hω]
  exact congrArg (fun s : EReal => s + b (ix2 (0 : Fin 1) q))
    (Cert.Lib.sum_sum_mul_assoc (K := Fin 10000) (J := Fin 256) (fun k => α (ix2 p k)) (fun k j => ξ (ix2 k j)) (fun j => ω (ix2 j q)))

/-- So they give one array. -/
theorem aggFirst_eq_projFirst (hx : ∀ i, ∃ r : ℝ, x i = (r : EReal)) (ha : ∀ i, ∃ r : ℝ, a i = (r : EReal))
    (hw : ∀ i, ∃ r : ℝ, w i = (r : EReal)) : aggFirst x a w b = projFirst x a w b :=
  funext fun i => aggFirstAt_eq_projFirstAt x a w b hx ha hw (i 0) (i 1)

end Cert.GraphConv

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.FiniteInputs.lean ====
/-
  From the precondition to real entries.

  The precondition is the conjunction, over the four float inputs, of "every entry has absolute value below +∞",
  and the whole conjunction is 1. So each conjunct is 1, and each is an and-reduction over all axes of the entrywise
  comparison |v| < +∞: every entry of that input is a real number. The layer's algebra uses this of the features,
  the adjacency and the weights; the bias needs no such fact.
-/
import proofs.«178998_g17901423690507_cont_7to1_773_20_alg».proof.Pre_finite_inputs
import proofs.«178998_g17901423690507_cont_7to1_773_20_alg».proof.Proof.LibFiniteEntries
import Idealize.ShloMosaic.Lib.ValueIdx

noncomputable section

namespace Cert.GraphConv

open Idealize.ShloMosaic Idealize.ShloMosaic.ValueIdx

variable [Cert.Pre_finite_inputs.Facts]

/-- Under the precondition every entry of the features, of the adjacency and of the weights is a real number. -/
theorem reals_of_pre (x : FVec Ideal Cert.Pre_finite_inputs.S10000x256 .f32) (a : FVec Ideal Cert.Pre_finite_inputs.S10000x10000 .f32)
    (w : FVec Ideal Cert.Pre_finite_inputs.S256x256 .f32) (b : FVec Ideal Cert.Pre_finite_inputs.S1x256 .f32)
    (h : Cert.Pre_finite_inputs.fn (F := Ideal) x a w b = fun _ => 1#1) :
    (∀ i, ∃ r : ℝ, x i = (r : EReal)) ∧ (∀ i, ∃ r : ℝ, a i = (r : EReal)) ∧ (∀ i, ∃ r : ℝ, w i = (r : EReal)) := by
  have h0 := congrFun h ix0
  dsimp only [Cert.Pre_finite_inputs.fn, Cert.Pre_finite_inputs.fn_part1, andi] at h0
  obtain ⟨h012, -⟩ := IntOp.andi_eq_one.1 h0
  obtain ⟨h01, h2⟩ := IntOp.andi_eq_one.1 h012
  obtain ⟨hx, ha⟩ := IntOp.andi_eq_one.1 h01
  exact ⟨Cert.Lib.real_of_all_finite x _ _ _ hx, Cert.Lib.real_of_all_finite a _ _ _ ha, Cert.Lib.real_of_all_finite w _ _ _ h2⟩

end Cert.GraphConv

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.StoredBlock.lean ====
/-
  What the kernel body stores, entry by entry.

  At one grid point the body holds a [400, 10000] block of adjacency rows, the whole feature matrix, the whole
  weight matrix and the bias row. It multiplies the adjacency block by the features into a zero accumulator,
  multiplies that [400, 256] product by the weights into a zero accumulator, and adds the bias row repeated down
  the 400 rows. At the ideal values a product into the zero accumulator is the plain sum over the contracted axis,
  so entry (p, q) of what is stored is

      Σ_j (Σ_k block(p,k) · x(k,j)) · w(j,q) + b(0,q).
-/
import proofs.«178998_g17901423690507_cont_7to1_773_20_alg».proof.Proof.Gen.KernelIdeal.Skeleton
import proofs.«178998_g17901423690507_cont_7to1_773_20_alg».proof.Proof.LibMatmul2
import Idealize.ShloMosaic.Lib.ValueLayout
import Idealize.ShloMosaic.Lib.ValueIdx

noncomputable section

namespace Cert.GraphConv

open Idealize.ShloMosaic Idealize.ShloMosaic.ValueIdx Cert.KernelIdeal Cert.KernelIdeal.Gen
open scoped BigOperators

/-- The stored value at (p, q): the aggregated block row p against column q of the weights, plus the bias at q. -/
theorem stored_apply (ab : Vec Ideal S400x10000 .f32) (x : Vec Ideal S10000x256 .f32) (w : Vec Ideal S256x256 .f32)
    (b : Vec Ideal S1x256 .f32) (p : Fin 400) (q : Fin 256) :
    k0_pay1 (F := Ideal) ab x w b (ix2 p q)
      = (∑ j : Fin 256, (∑ k : Fin 10000, ab (ix2 p k) * x (ix2 k j)) * w (ix2 j q)) + b (ix2 (0 : Fin 1) q) := by
  unfold k0_pay1
  show (matmul dot_S400x256_S256x256_S400x256_1_0_0_1_n_n none
          (matmul dot_S400x10000_S10000x256_S400x256_1_0_0_1_n_n none ab x (constant (F := Ideal) S400x256 .f32 0x00000000#32)) w
          (constant (F := Ideal) S400x256 .f32 0x00000000#32)) (ix2 p q)
        + (broadcastTo S400x256 b Facts₀.broadcasts_S1x256_S400x256) (ix2 p q) = _
  refine congrArg₂ (fun s t : EReal => s + t) ?_ (broadcastTo_1b_ab_apply b _ p q)
  refine (Cert.Lib.matmul2_zero_apply Facts₀.dot_S400x256_S256x256_S400x256_1_0_0_1_n_n_wf _ w p q).trans ?_
  exact Finset.sum_congr rfl fun j _ => congrArg (fun s : EReal => s * w (ix2 j q))
    (Cert.Lib.matmul2_zero_apply Facts₀.dot_S400x10000_S10000x256_S400x256_1_0_0_1_n_n_wf ab x p j)

end Cert.GraphConv

end
-- ==== Proof.KernelValue.lean ====
/-
  From the blocks to the whole result array.

  The kernel walks 25 grid points. At point t the pipeline hands the body the whole feature matrix, the whole weight
  matrix, the whole bias row (their windows stay at block (0, 0)), and rows 400·t … 400·t + 399 of the adjacency; the
  body's one store fills the [400, 256] output block, which is written back as rows 400·t … 400·t + 399 of the result.
  Entry (p, q) of what is stored is Σ_j (Σ_k block(p,k) · x(k,j)) · w(j,q) + b(0,q), and row p of adjacency block t
  is row 400·t + p of the adjacency, so point t writes back block t of ONE whole-array function: the layer with the
  neighbours aggregated first. Row r lies in block r / 400, so the 25 blocks cover the array, and the result array
  ends holding that function of the arguments as launched.
-/
import proofs.«178998_g17901423690507_cont_7to1_773_20_alg».proof.Proof.Gen.KernelIdeal.Value
import proofs.«178998_g17901423690507_cont_7to1_773_20_alg».proof.Proof.Layer
import proofs.«178998_g17901423690507_cont_7to1_773_20_alg».proof.Proof.StoredBlock
import Idealize.ShloMosaic.Lib.Pipeline.Value
import Idealize.ShloMosaic.Lib.ValueIdx

noncomputable section

namespace Cert.GraphConv

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun d => by fin_cases d <;> rfl

/-- The block positions over the 25 grid points, decided: the features, the weights and the bias sit at block (0, 0)
    throughout; the adjacency and the output are at row block t. -/
theorem block_positions : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- With row p of the adjacency block being row r of the adjacency, the body's stored value at (p, q) is entry (r, q)
    of the layer, neighbours aggregated first. -/
theorem stored_eq_layer (X : Vec Ideal S10000x256 .f32) (A : S10000x10000.Idx → EReal) (W : Vec Ideal S256x256 .f32)
    (B : Vec Ideal S1x256 .f32) (ab : Vec Ideal S400x10000 .f32) (r : Fin 10000) (p : Fin 400) (q : Fin 256)
    (hab : ∀ k : Fin 10000, ab (ix2 p k) = A (ix2 r k)) :
    k0_pay1 (F := Ideal) ab X W B (ix2 p q) = aggFirstAt X A W B r q := by
  rw [stored_apply]
  unfold aggFirstAt
  simp only [hab]

/-- What grid point t writes back is block t of the layer, neighbours aggregated first, of the arrays as launched. -/
theorem flushed_eq (c : Dev nD) (t : Fin cfg0.N) :
    (dats m 0 c).flushed 4 t = ((cfg0.win 4).blk t).view.read (Elt Ideal)
      (aggFirst (V m c main_arg0) (V m c main_arg1) (V m c main_arg2) (V m c main_arg3)) := by
  rw [Cert.KernelIdeal.Value.flushed4]
  unfold out0_4
  rw [View.canon_unit_zero zero_offsets]
  simp only [View.ld_unit_zero (S := S400x10000) zero_offsets, View.ld_unit_zero (S := S10000x256) zero_offsets,
    View.ld_unit_zero (S := S256x256) zero_offsets, View.ld_unit_zero (S := S1x256) zero_offsets]
  obtain ⟨e00, e01, e10, e11, e20, e21, e30, e31, e40, e41⟩ := block_positions t
  have hN : grid0.N = 25 := N_0
  have ht : t.val < 25 := hN ▸ t.isLt
  -- the three resident windows hold their whole arrays
  have h0 : iblk m c 0 t = V m c main_arg0 := by
    funext y
    show V m c main_arg0 (((cfg0.win 0).blk t).view.emb y) = V m c main_arg0 y
    refine congrArg _ (funext fun d => Fin.ext ?_)
    match d with
    | ⟨0, _⟩ => show win0_0.index t (0 : Fin 2) * 10000 + 1 * (y 0).val = (y 0).val; omega
    | ⟨1, _⟩ => show win0_0.index t (1 : Fin 2) * 256 + 1 * (y 1).val = (y 1).val; omega
  have h1 : iblk m c 1 t = V m c main_arg2 := by
    funext y
    show V m c main_arg2 (((cfg0.win 1).blk t).view.emb y) = V m c main_arg2 y
    refine congrArg _ (funext fun d => Fin.ext ?_)
    match d with
    | ⟨0, _⟩ => show win0_1.index t (0 : Fin 2) * 256 + 1 * (y 0).val = (y 0).val; omega
    | ⟨1, _⟩ => show win0_1.index t (1 : Fin 2) * 256 + 1 * (y 1).val = (y 1).val; omega
  have h2 : iblk m c 2 t = V m c main_arg3 := by
    funext y
    show V m c main_arg3 (((cfg0.win 2).blk t).view.emb y) = V m c main_arg3 y
    refine congrArg _ (funext fun d => Fin.ext ?_)
    match d with
    | ⟨0, _⟩ => show win0_2.index t (0 : Fin 2) * 1 + 1 * (y 0).val = (y 0).val; omega
    | ⟨1, _⟩ => show win0_2.index t (1 : Fin 2) * 256 + 1 * (y 1).val = (y 1).val; omega
  rw [h0, h1, h2]
  funext j
  obtain ⟨p, q, rfl⟩ : ∃ (p : Fin 400) (q : Fin 256), j = ix2 p q := ⟨j 0, j 1, eq_ix2 j⟩
  have hp : p.val < 400 := p.isLt
  show k0_pay1 (F := Ideal) (iblk m c 3 t) (V m c main_arg0) (V m c main_arg2) (V m c main_arg3) (ix2 p q)
      = aggFirst (V m c main_arg0) (V m c main_arg1) (V m c main_arg2) (V m c main_arg3) (((cfg0.win 4).blk t).view.emb (ix2 p q))
  -- row p of output block t is row 400·t + p of the array
  have hout : ((cfg0.win 4).blk t).view.emb (ix2 p q) = ix2 (⟨t.val * 400 + p.val, by omega⟩ : Fin 10000) q := by
    funext d; apply Fin.ext
    match d with
    | ⟨0, _⟩ => show win0_4.index t (0 : Fin 2) * 400 + 1 * p.val = t.val * 400 + p.val; omega
    | ⟨1, _⟩ => show win0_4.index t (1 : Fin 2) * 256 + 1 * q.val = q.val; omega
  rw [hout]
  show _ = aggFirstAt (V m c main_arg0) (V m c main_arg1) (V m c main_arg2) (V m c main_arg3) ⟨t.val * 400 + p.val, by omega⟩ q
  refine stored_eq_layer (V m c main_arg0) (V m c main_arg1) (V m c main_arg2) (V m c main_arg3) (iblk m c 3 t) _ p q fun k => ?_
  -- and row p of adjacency block t is row 400·t + p of the adjacency
  show V m c main_arg1 (((cfg0.win 3).blk t).view.emb (ix2 p k)) = V m c main_arg1 (ix2 (⟨t.val * 400 + p.val, by omega⟩ : Fin 10000) k)
  refine congrArg _ (funext fun d => Fin.ext ?_)
  match d with
  | ⟨0, _⟩ => show win0_3.index t (0 : Fin 2) * 400 + 1 * p.val = t.val * 400 + p.val; omega
  | ⟨1, _⟩ => show win0_3.index t (1 : Fin 2) * 10000 + 1 * k.val = k.val; omega

/-- An index of the result array is in point t's output block iff each coordinate is in the block's range. -/
theorem mem_out_block (t : Fin cfg0.N) (i : S10000x256.Idx) :
    i ∈ ((cfg0.win 4).blk t).view.set ↔ ∀ d : Fin 2, win0_4.index t d * S400x256.size d ≤ (i d).val ∧ (i d).val < win0_4.index t d * S400x256.size d + S400x256.size d := by
  show i ∈ ((View.whole main_v0).slice (win0_4.rect t)).set ↔ _
  rw [View.set_slice_whole, Rect.mem_set_unit]
  exact Iff.rfl

/-- The 25 output blocks of 400 rows cover the 10000 rows: row r is in block r / 400. -/
theorem out_blocks_cover (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  have hN : grid0.N = 25 := N_0
  obtain ⟨t, ht⟩ : ∃ t : Fin cfg0.N, t.val = (i 0).val / 400 := ⟨⟨(i 0).val / 400, by rw [show cfg0.N = 25 from hN]; omega⟩, rfl⟩
  obtain ⟨-, -, -, -, -, -, -, -, e40, e41⟩ := block_positions t
  refine ⟨t, flush0_4 t, ?_⟩
  rw [mem_out_block]
  intro d
  match d with
  | ⟨0, _⟩ => show win0_4.index t (0 : Fin 2) * 400 ≤ (i 0).val ∧ (i 0).val < win0_4.index t (0 : Fin 2) * 400 + 400; omega
  | ⟨1, _⟩ => show win0_4.index t (1 : Fin 2) * 256 ≤ (i 1).val ∧ (i 1).val < win0_4.index t (1 : Fin 2) * 256 + 256; omega

/-- So the result array ends holding the layer, neighbours aggregated first, of the arguments as launched. -/
theorem result_eq (c : Dev nD) : (dats m 0 c).arrAt 4 cfg0.N
    = aggFirst (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) out_blocks_cover

/-- The kernel's run, read: every weakly fair execution terminates with the result array at the layer, neighbours
    aggregated first, and the four arguments unchanged. -/
theorem kernel_run : θ_run defs (onTc (τ := τ) (main (F := Ideal))) ⟨m, fun _ => 0, ρ⟩ fun r => ∀ c : Dev nD,
      r.2.mem ((c : Thread nD τ).loc main_v0)
          = aggFirst (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Cert.KernelIdeal.Value.run_blocks m ρ)

end Cert.GraphConv

end
-- ==== Proof.ReferenceValue.lean ====
/-
  What the reference computes, entry by entry.

  The reference multiplies the features by the weights, multiplies the adjacency by that product, and adds the bias
  row repeated down the rows. At the ideal values each of its two products, read at an entry, is the plain sum over
  the contracted axis, so entry (p, q) of its result is Σ_k a(p,k) · (Σ_j x(k,j) · w(j,q)) + b(0,q): the layer with
  the features projected first.
-/
import proofs.«178998_g17901423690507_cont_7to1_773_20_alg».proof.Proof.Gen.ReferenceIdeal.Read
import proofs.«178998_g17901423690507_cont_7to1_773_20_alg».proof.Proof.Layer

noncomputable section

namespace Cert.GraphConv

open Cert.ReferenceIdeal Cert.ReferenceIdeal.Read Idealize.ShloMosaic Idealize.ShloMosaic.ValueIdx
open scoped BigOperators

/-- The reference's last stage is the layer with the features projected first. -/
theorem reference_eq (x : (⟨S10000x256, .f32⟩ : BufTy).Contents (Elt Ideal)) (a : (⟨S10000x10000, .f32⟩ : BufTy).Contents (Elt Ideal))
    (w : (⟨S256x256, .f32⟩ : BufTy).Contents (Elt Ideal)) (b : (⟨S1x256, .f32⟩ : BufTy).Contents (Elt Ideal)) :
    val_main_v3 (F := Ideal) x a w b = projFirst x a w b := by
  funext i
  obtain ⟨p, q, rfl⟩ : ∃ (p : Fin 10000) (q : Fin 256), i = ix2 p q := ⟨i 0, i 1, eq_ix2 i⟩
  -- the operand positions of the two products and of the repeated bias row, in coordinates
  have e1 : ∀ k : Fin 10000, lidx_main_v1 (ix2 p q) k = ix2 p k := fun k =>
    funext fun d => by match d with | ⟨0, _⟩ => rfl | ⟨1, _⟩ => rfl
  have e2 : ∀ k : Fin 10000, ridx_main_v1 (ix2 p q) k = ix2 k q := fun k =>
    funext fun d => by match d with | ⟨0, _⟩ => rfl | ⟨1, _⟩ => rfl
  have e3 : ∀ (k : Fin 10000) (j : Fin 256), lidx_main_v0 (ix2 k q) j = ix2 k j := fun k j =>
    funext fun d => by match d with | ⟨0, _⟩ => rfl | ⟨1, _⟩ => rfl
  have e4 : ∀ (k : Fin 10000) (j : Fin 256), ridx_main_v0 (ix2 k q) j = ix2 j q := fun k j =>
    funext fun d => by match d with | ⟨0, _⟩ => rfl | ⟨1, _⟩ => rfl
  have e5 : idx_main_v2 (ix2 p q) = ix2 (0 : Fin 1) q :=
    funext fun d => by match d with | ⟨0, _⟩ => rfl | ⟨1, _⟩ => rfl
  show _ = projFirstAt x a w b p q
  unfold projFirstAt
  rw [val_main_v3_apply, val_main_v1_apply, val_main_v2_apply, e5]
  refine congrArg (fun s : EReal => s + b (ix2 (0 : Fin 1) q)) ?_
  refine Finset.sum_congr rfl fun k _ => ?_
  rw [e1 k, e2 k, val_main_v0_apply]
  refine congrArg (fun s : EReal => a (ix2 p k) * s) ?_
  exact Finset.sum_congr rfl fun j _ => by rw [e3 k j, e4 k j]

end Cert.GraphConv

end
-- ==== Proof.lean ====
/-
  A graph-convolution layer, fused and reassociated, against its plain form.

  The reference computes  out = adj · (x · w) + bias  on the host: the features x [10000, 256] are projected by the
  weights w [256, 256], the dense adjacency adj [10000, 10000] aggregates the projected rows, and the bias row
  [1, 256] is added to every row. The kernel walks the adjacency in 25 blocks of 400 rows; at each block it
  aggregates first and projects second,  (adj_block · x) · w + bias,  and writes the 400 finished rows.

  At the ideal values a matrix product into a zero accumulator is the plain sum over the contracted axis, so entry
  (r, q) of the kernel's result is  Σ_j (Σ_k adj(r,k) · x(k,j)) · w(j,q) + bias(0,q)  and entry (r, q) of the
  reference's is  Σ_k adj(r,k) · (Σ_j x(k,j) · w(j,q)) + bias(0,q).  These are the same products regrouped, which on
  the extended reals needs the entries of adj, x and w to be real numbers: that is what the precondition gives (the
  bias is only added, on both sides). The idealization rewrote nothing, so the kernel and its idealized text agree
  with no further statement; the three programs' runs terminate with their arguments unchanged.
-/
import proofs.«178998_g17901423690507_cont_7to1_773_20_alg».proof.Defs
import proofs.«178998_g17901423690507_cont_7to1_773_20_alg».proof.Proof.Gen.Kernel
import proofs.«178998_g17901423690507_cont_7to1_773_20_alg».proof.Proof.Gen.Kernel.Skeleton
import proofs.«178998_g17901423690507_cont_7to1_773_20_alg».proof.Proof.Gen.Kernel.Launch
import proofs.«178998_g17901423690507_cont_7to1_773_20_alg».proof.Proof.Gen.Kernel.Points
import proofs.«178998_g17901423690507_cont_7to1_773_20_alg».proof.Proof.Gen.Kernel.Frame
import proofs.«178998_g17901423690507_cont_7to1_773_20_alg».proof.Proof.Gen.KernelIdeal
import proofs.«178998_g17901423690507_cont_7to1_773_20_alg».proof.Proof.Gen.KernelIdeal.Skeleton
import proofs.«178998_g17901423690507_cont_7to1_773_20_alg».proof.Proof.Gen.KernelIdeal.Launch
import proofs.«178998_g17901423690507_cont_7to1_773_20_alg».proof.Proof.Gen.KernelIdeal.Points
import proofs.«178998_g17901423690507_cont_7to1_773_20_alg».proof.Proof.Gen.KernelIdeal.Frame
import proofs.«178998_g17901423690507_cont_7to1_773_20_alg».proof.Proof.Gen.ReferenceIdeal
import proofs.«178998_g17901423690507_cont_7to1_773_20_alg».proof.Proof.Gen.Pre_finite_inputs
import proofs.«178998_g17901423690507_cont_7to1_773_20_alg».proof.Proof.Gen.KernelIdeal.Value
import proofs.«178998_g17901423690507_cont_7to1_773_20_alg».proof.Proof.Gen.ReferenceIdeal.Run
import proofs.«178998_g17901423690507_cont_7to1_773_20_alg».proof.Proof.Gen.ReferenceIdeal.Read
import proofs.«178998_g17901423690507_cont_7to1_773_20_alg».proof.Proof.Layer
import proofs.«178998_g17901423690507_cont_7to1_773_20_alg».proof.Proof.FiniteInputs
import proofs.«178998_g17901423690507_cont_7to1_773_20_alg».proof.Proof.KernelValue
import proofs.«178998_g17901423690507_cont_7to1_773_20_alg».proof.Proof.ReferenceValue
import Idealize.ShloMosaic.Adequacy
import Idealize.ShloMosaic.Init

noncomputable section

namespace Cert.Proof

open Idealize.ShloMosaic Idealize.SL.Sem

/-- The kernel as printed terminates with its arguments unchanged. -/
theorem frame_kernel : Cert.frame_Kernel := fun m ρ _ => Cert.Kernel.Gen.frame m ρ

/-- So does its idealized text. -/
theorem frame_kernel_ideal : Cert.frame_KernelIdeal := fun m ρ _ => Cert.KernelIdeal.Gen.frame m ρ

/-- The reference is four host operations in a row: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer of the same arguments: the kernel with the neighbours aggregated first, the
    reference with the features projected first, one array where adj, x and w are real. -/
theorem algebraic : Cert.algebraic_KernelIdeal_ReferenceIdeal := by
  intro m ρ m' ρ' hpre hagree
  refine ⟨_, Cert.GraphConv.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hw⟩ := Cert.GraphConv.reals_of_pre _ _ _ _ (hpre c)
  rw [(hagree c).1, (hagree c).2.1, (hagree c).2.2.1, (hagree c).2.2.2]
  exact ((Cert.ReferenceIdeal.Read.val_main_v3_eq _ _ _ _).trans (Cert.GraphConv.reference_eq _ _ _ _)).trans
    (Cert.GraphConv.aggFirst_eq_projFirst _ _ _ _ hx ha hw).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
